-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S256x128 : Shape := ⟨2, ![256, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S256x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S256x128 .f32) (main_arg3 : FVec F S128 .f32) (main_arg4 : FVec F S256x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S256x128 : Shape := ⟨2, ![256, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩
abbrev S128x128 : Shape := ⟨2, ![128, 128]⟩

abbrev nBuf : Space → Nat
  | .hbm => 12
  | .vmem => 18
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S10000x128, .bf16⟩
  | .hbm, ⟨7, _⟩ => ⟨S1x128, .f32⟩
  | .hbm, ⟨8, _⟩ => ⟨S10000x128, .f32⟩
  | .hbm, ⟨9, _⟩ => ⟨S10000x128, .bf16⟩
  | .hbm, ⟨10, _⟩ => ⟨S1x128, .f32⟩
  | .hbm, ⟨11, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .bf16⟩
  | .local _ .vmem, ⟨3, _⟩ => ⟨S400x128, .f32⟩
  | .local _ .vmem, ⟨4, _⟩ => ⟨S400x128, .f32⟩
  | .local _ .vmem, ⟨5, _⟩ => ⟨S256x128, .f32⟩
  | .local _ .vmem, ⟨6, _⟩ => ⟨S1x128, .f32⟩
  | .local _ .vmem, ⟨7, _⟩ => ⟨S400x128, .f32⟩
  | .local _ .vmem, ⟨8, _⟩ => ⟨S400x128, .f32⟩
  | .local _ .vmem, ⟨9, _⟩ => ⟨S400x10000, .f32⟩
  | .local _ .vmem, ⟨10, _⟩ => ⟨S400x10000, .f32⟩
  | .local _ .vmem, ⟨11, _⟩ => ⟨S10000x128, .bf16⟩
  | .local _ .vmem, ⟨12, _⟩ => ⟨S400x128, .f32⟩
  | .local _ .vmem, ⟨13, _⟩ => ⟨S400x128, .f32⟩
  | .local _ .vmem, ⟨14, _⟩ => ⟨S256x128, .f32⟩
  | .local _ .vmem, ⟨15, _⟩ => ⟨S1x128, .f32⟩
  | .local _ .vmem, ⟨16, _⟩ => ⟨S400x128, .f32⟩
  | .local _ .vmem, ⟨17, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S400x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bitsLt_bf16_f32 : FTy.bits .bf16 < FTy.bits .f32
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S400x128_S400x128_0_0 : ∀ a, (![0, 0] : Fin 2 → Nat) a + S400x128.size a ≤ S400x128.size a
  h_S400x128 : 0 < S400x128.numel
  inb_S256x128_S128x128_0_0 : ∀ a, (![0, 0] : Fin 2 → Nat) a + S128x128.size a ≤ S256x128.size a
  h_S128x128 : 0 < S128x128.numel
  inb_S256x128_S128x128_128_0 : ∀ a, (![128, 0] : Fin 2 → Nat) a + S128x128.size a ≤ S256x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  shapeCasts_S400x128_S400x128 : S400x128.ShapeCasts S400x128
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .bf16 = 32 ∨ (Rect.block (s := S10000x128) S10000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x128.size a ≤ S10000x128.size a
  hwx0_2 : ∀ i : grid0.Coords, EltTy.bits .f32 = 32 ∨ (Rect.block (s := S10000x128) S400x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .f32 = 32 ∨ (Rect.block (s := S10000x128) S400x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x128.size a ≤ S10000x128.size a
  hwx1_5 : ∀ i : grid1.Coords, EltTy.bits .f32 = 32 ∨ (Rect.block (s := S10000x128) S400x128.size (cc1_transform_5 i) (hinb1_5 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S400x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S400x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S256x128 : Shape := ⟨2, ![256, 128]⟩
abbrev S128 : Shape := ⟨1, ![128]⟩
abbrev S10000x256 : Shape := ⟨2, ![10000, 256]⟩
abbrev S1x128 : Shape := ⟨2, ![1, 128]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S10000x128, .f32⟩
  | .hbm, ⟨7, _⟩ => ⟨S10000x256, .f32⟩
  | .hbm, ⟨8, _⟩ => ⟨S10000x128, .f32⟩
  | .hbm, ⟨9, _⟩ => ⟨S1x128, .f32⟩
  | .hbm, ⟨10, _⟩ => ⟨S10000x128, .f32⟩
  | .hbm, ⟨11, _⟩ => ⟨S10000x128, .f32⟩
  | .hbm, ⟨12, _⟩ => ⟨S_, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S10000x256, .f32⟩
  | .hbm, ⟨17, _⟩ => ⟨S10000x128, .f32⟩
  | .hbm, ⟨18, _⟩ => ⟨S1x128, .f32⟩
  | .hbm, ⟨19, _⟩ => ⟨S10000x128, .f32⟩
  | .hbm, ⟨20, _⟩ => ⟨S10000x128, .f32⟩
  | .hbm, ⟨21, _⟩ => ⟨S_, .f32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S_, .f32⟩
  | .hbm, ⟨26, _⟩ => ⟨S10000x128, .f32⟩
  | .hbm, ⟨27, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call1_cst : Ref sig .tc := ⟨.hbm, 21, rfl⟩
abbrev main_call1_v0 : Ref sig .tc := ⟨.hbm, 22, rfl⟩
abbrev main_v13 : Ref sig .tc := ⟨.hbm, 23, rfl⟩
abbrev main_v14 : Ref sig .tc := ⟨.hbm, 24, rfl⟩
abbrev main_call2_cst : Ref sig .tc := ⟨.hbm, 25, rfl⟩
abbrev main_call2_v0 : Ref sig .tc := ⟨.hbm, 26, rfl⟩
abbrev main_v15 : Ref sig .tc := ⟨.hbm, 27, rfl⟩

abbrev nD : Nat := 1
abbrev τ : Topo := Topo.v7x

variable {F : FTy → Type} [FloatOps F]

class Facts₀ : Prop where
  concatenates_S10000x128_S10000x128_S10000x256_d1 : Shape.Concatenates [S10000x128, S10000x128] S10000x256 1
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.GcnSpec.lean ====
/-
  Two graph-convolution layers with mean aggregation over a dense adjacency matrix, as ONE function of the six argument
  arrays, index by index, over the extended reals.

  A layer maps node features `v` (10000 nodes, 128 features each) to
      max (v · W[0:128] + (A · u) · W[128:256] + b, 0)
  where `A` is the 10000 × 10000 adjacency matrix, `u` the features the aggregation reads (the same numbers as `v`:
  the kernel passes them a second time after a change of float format, which is the identity on the extended reals),
  `W` the 256 × 128 weight matrix whose upper half multiplies the node's own features and whose lower half the
  aggregated ones, and `b` the bias of a column. The second layer adds its input back and takes `max` with 0 again.

  The one algebraic law between the two programs: a sum over the 256 rows of `W` is the sum over its upper 128 rows
  plus the sum over its lower 128 rows (`sum_halves`) — addition on the extended reals is commutative and associative,
  so the law needs no finiteness.
-/
import Idealize.ShloMosaic.Lib.ValueIdx
import Mathlib.Algebra.BigOperators.Fin

noncomputable section

open scoped BigOperators

namespace Cert.Gcn

open Idealize.ShloMosaic Idealize.ShloMosaic.ValueIdx

/-- An `a × b` matrix of extended reals, by index. -/
abbrev Mat (a b : Nat) : Type := (⟨2, ![a, b]⟩ : Shape).Idx → EReal

/-- Row `k` of the upper half of a 256-row matrix. -/
def lo (k : Fin 128) : Fin 256 := ⟨k.val, by have := k.isLt; omega⟩
/-- Row `k` of the lower half of a 256-row matrix: row `128 + k`. -/
def hi (k : Fin 128) : Fin 256 := ⟨128 + k.val, by have := k.isLt; omega⟩

/-- A sum over 256 rows is the sum over the upper 128 plus the sum over the lower 128. -/
theorem sum_halves (f : Fin 256 → EReal) : ∑ k : Fin 256, f k = ∑ k : Fin 128, f (lo k) + ∑ k : Fin 128, f (hi k) :=
  Fin.sum_univ_add (a := 128) (b := 128) f

/-- The aggregate of node `r`: feature `k` averaged over the graph by row `r` of `A`. -/
def agg (A : Mat 10000 10000) (u : Mat 10000 128) (r : Fin 10000) (k : Fin 128) : EReal :=
  ∑ j : Fin 10000, A (ix2 r j) * u (ix2 j k)

/-- One layer: the node's own features through the upper half of `W`, its aggregate through the lower half, the
    bias, and `max` with 0. -/
def conv (A : Mat 10000 10000) (u v : Mat 10000 128) (W : Mat 256 128) (b : Fin 128 → EReal) : Mat 10000 128 :=
  fun i => max ((∑ k : Fin 128, v (ix2 (i 0) k) * W (ix2 (lo k) (i 1))
                  + ∑ k : Fin 128, agg A u (i 0) k * W (ix2 (hi k) (i 1))) + b (i 1)) 0

/-- The layer with its input added back, and `max` with 0 again. -/
def convRes (A : Mat 10000 10000) (u v : Mat 10000 128) (W : Mat 256 128) (b : Fin 128 → EReal) : Mat 10000 128 :=
  fun i => max (conv A u v W b i + v i) 0

/-- The network: a layer, then a layer with the residual. -/
def net (x : Mat 10000 128) (A : Mat 10000 10000) (W1 : Mat 256 128) (b1 : Fin 128 → EReal) (W2 : Mat 256 128)
    (b2 : Fin 128 → EReal) : Mat 10000 128 :=
  convRes A (conv A x x W1 b1) (conv A x x W1 b1) W2 b2

end Cert.Gcn

end
-- ==== Proof.RefNet.lean ====
/-
  The reference computes the network of the specification. Each of its layers concatenates the node features with
  their aggregate along the feature axis (256 columns) and multiplies by the 256 × 128 weights: entry (r, q) of that
  product is a sum over 256 columns, whose first 128 terms read the features themselves against the upper weights and
  whose last 128 read the aggregate against the lower weights. Split in halves, it is the layer of the specification.
  The bias is broadcast twice (to a row, then down the rows), and `max` is taken with a broadcast zero.
-/
import proofs.«104888_g44830868636165_cont_8to1_c_628_6_alg».proof.Proof.Gen.ReferenceIdeal.Read
import proofs.«104888_g44830868636165_cont_8to1_c_628_6_alg».proof.Proof.GcnSpec
import Idealize.ShloMosaic.Lib.ValueIdx
import Idealize.ShloMosaic.Lib.Pipeline.Value
import Idealize.ShloMosaic.PureOps.Ideal.Laws

noncomputable section

open scoped BigOperators

namespace Cert.ReferenceIdeal.Hand

open Cert.ReferenceIdeal Cert.ReferenceIdeal.Gen Cert.ReferenceIdeal.Read Idealize.ShloMosaic Idealize.ShloMosaic.ValueIdx
open Cert.Gcn (lo hi)

/-! ## Two arrays joined along the feature axis, read at coordinates -/

/-- A column of the upper half reads the first array. -/
theorem cat_lo (x y : S10000x128.Idx → EReal) (r : Fin 10000) (k : Fin 128) :
    concatenate S10000x256 1 [⟨S10000x128, x⟩, ⟨S10000x128, y⟩] concatenates_S10000x128_S10000x128_S10000x256_d1 (ix2 r (lo k))
      = x (ix2 r k) :=
  concatenate_pair_apply_left 1 x y _ (ix2 r (lo k)) rfl (ix2 r k) (fun b => by
    match b with
    | ⟨0, _⟩ => rfl
    | ⟨1, _⟩ => rfl)

/-- A column of the lower half reads the second array, 128 columns to the left. -/
theorem cat_hi (x y : S10000x128.Idx → EReal) (r : Fin 10000) (k : Fin 128) :
    concatenate S10000x256 1 [⟨S10000x128, x⟩, ⟨S10000x128, y⟩] concatenates_S10000x128_S10000x128_S10000x256_d1 (ix2 r (hi k))
      = y (ix2 r k) :=
  concatenate_pair_apply_right 1 x y _ (ix2 r (hi k)) rfl rfl (ix2 r k) (fun b hb => by
    match b with
    | ⟨0, _⟩ => rfl
    | ⟨1, _⟩ => exact absurd rfl hb) (by show k.val + 128 = 128 + k.val; omega)

/-! ## The operand indices of the generated read lemmas, as coordinates -/

theorem lidx_v2 (r : Fin 10000) (q : Fin 128) (k : Fin 256) : lidx_main_v2 (ix2 r q) k = ix2 r k :=
  funext fun a => by match a with | ⟨0, _⟩ => rfl | ⟨1, _⟩ => rfl
theorem ridx_v2 (r : Fin 10000) (q : Fin 128) (k : Fin 256) : ridx_main_v2 (ix2 r q) k = ix2 k q :=
  funext fun a => by match a with | ⟨0, _⟩ => rfl | ⟨1, _⟩ => rfl
theorem lidx_v0 (r : Fin 10000) (k : Fin 128) (j : Fin 10000) : lidx_main_v0 (ix2 r k) j = ix2 r j :=
  funext fun a => by match a with | ⟨0, _⟩ => rfl | ⟨1, _⟩ => rfl
theorem ridx_v0 (r : Fin 10000) (k : Fin 128) (j : Fin 10000) : ridx_main_v0 (ix2 r k) j = ix2 j k :=
  funext fun a => by match a with | ⟨0, _⟩ => rfl | ⟨1, _⟩ => rfl
theorem idx_bias (r : Fin 10000) (q : Fin 128) : idx_main_v3 (idx_main_v4 (ix2 r q)) = ix1 q :=
  funext fun a => by match a with | ⟨0, _⟩ => rfl

/-! ## A layer of the reference is a layer of the specification -/

/-- The reference's first layer, of ANY four arrays: the specification's layer, the aggregation reading the features
    themselves. -/
theorem layer_eq (x0 : (⟨S10000x128, .f32⟩ : BufTy).Contents (Elt Ideal)) (x1 : (⟨S10000x10000, .f32⟩ : BufTy).Contents (Elt Ideal))
    (x2 : (⟨S256x128, .f32⟩ : BufTy).Contents (Elt Ideal)) (x3 : (⟨S128, .f32⟩ : BufTy).Contents (Elt Ideal)) :
    val_main_v6 (F := Ideal) x0 x1 x2 x3 = Cert.Gcn.conv x1 x0 x0 x2 (fun q => x3 (ix1 q)) := by
  funext i
  obtain ⟨r, q, rfl⟩ : ∃ (r : Fin 10000) (q : Fin 128), i = ix2 r q := ⟨i 0, i 1, eq_ix2 i⟩
  rw [val_main_v6_apply, val_main_v5_apply, val_main_v2_apply, val_main_v4_apply, val_main_v3_apply,
    val_main_call0_v0_apply, val_main_call0_cst_apply, Cert.Gcn.sum_halves]
  unfold val_main_v1
  simp only [lidx_v2, ridx_v2, idx_bias, cat_lo, cat_hi, val_main_v0_apply, lidx_v0, ridx_v0]
  show max ((∑ k : Fin 128, x0 (ix2 r k) * x2 (ix2 (lo k) q)
              + ∑ k : Fin 128, (∑ j : Fin 10000, x1 (ix2 r j) * x0 (ix2 j k)) * x2 (ix2 (hi k) q)) + x3 (ix1 q))
          (Ideal.ofBits .f32 0x00000000#32) = _
  rw [Ideal.ofBits_zero_f32]
  rfl

/-- The reference's second layer is its first layer's operations again, of the first layer's result and the second
    weights and bias. -/
theorem second_layer (x0 : (⟨S10000x128, .f32⟩ : BufTy).Contents (Elt Ideal)) (x1 : (⟨S10000x10000, .f32⟩ : BufTy).Contents (Elt Ideal))
    (x2 : (⟨S256x128, .f32⟩ : BufTy).Contents (Elt Ideal)) (x3 : (⟨S128, .f32⟩ : BufTy).Contents (Elt Ideal))
    (x4 : (⟨S256x128, .f32⟩ : BufTy).Contents (Elt Ideal)) (x5 : (⟨S128, .f32⟩ : BufTy).Contents (Elt Ideal)) :
    val_main_v13 (F := Ideal) x0 x1 x2 x3 x4 x5 = val_main_v6 (F := Ideal) (val_main_v6 (F := Ideal) x0 x1 x2 x3) x1 x4 x5 := rfl

/-- The reference's result is the network of its six arguments. -/
theorem result_eq (x0 : (⟨S10000x128, .f32⟩ : BufTy).Contents (Elt Ideal)) (x1 : (⟨S10000x10000, .f32⟩ : BufTy).Contents (Elt Ideal))
    (x2 : (⟨S256x128, .f32⟩ : BufTy).Contents (Elt Ideal)) (x3 : (⟨S128, .f32⟩ : BufTy).Contents (Elt Ideal))
    (x4 : (⟨S256x128, .f32⟩ : BufTy).Contents (Elt Ideal)) (x5 : (⟨S128, .f32⟩ : BufTy).Contents (Elt Ideal)) :
    val_main_v15 (F := Ideal) x0 x1 x2 x3 x4 x5
      = Cert.Gcn.net x0 x1 x2 (fun q => x3 (ix1 q)) x4 (fun q => x5 (ix1 q)) := by
  funext i
  rw [val_main_v15_apply, val_main_v14_apply, second_layer, val_main_call2_v0_apply, val_main_call2_cst_apply]
  simp only [layer_eq]
  show max (_ + _) (Ideal.ofBits .f32 0x00000000#32) = _
  rw [Ideal.ofBits_zero_f32]
  rfl

end Cert.ReferenceIdeal.Hand

end
-- ==== Proof.KernelRun.lean ====
/-
  The idealized kernel's run with its result named: every weakly fair execution of @main terminates, nothing faulting,
  with the result array holding what the second region's write-backs leave in it — the last stage `W4` of the fold of
  @main's four segments (bias reshape and format change, first layer, the same for the second layer, second layer) over
  the launch memory — and the six argument arrays as launched. The segments and the thread states between them are the
  imported frame module's definitions; the final state is read at the result's buffer beside the arguments'.
-/
import proofs.«104888_g44830868636165_cont_8to1_c_628_6_alg».proof.Proof.Gen.KernelIdeal.Frame

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last fold, the arguments unchanged. -/
theorem run_named : θ_run defs (onTc (τ := τ) (main (F := F))) ⟨m, fun _ => 0, ρ⟩ (fun r => ∀ c : Dev nD,
      r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v5 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Hand

end
-- ==== Proof.Payload.lean ====
/-
  The arithmetic of one grid point, read at one element. A point holds 400 rows of the adjacency matrix (a 400 × 10000
  panel), all 10000 × 128 features, its own 400 rows of them, the 256 × 128 weights and the 1 × 128 bias row, and
  writes 400 rows of the layer's result. Every product accumulates into zero, so at the extended reals it is the plain
  sum over the contracted axis of the products of the operands' entries; the change of float format on the way into the
  first product is the identity; the bias row is repeated down the 400 rows.
-/
import proofs.«104888_g44830868636165_cont_8to1_c_628_6_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-! ## The two products at coordinates -/

theorem panel_lhs0 (i : S400x128.Idx) (c : dot_S400x10000_S10000x128_S400x128_1_0_0_1_n_n.contr.Idx) : (dot_S400x10000_S10000x128_S400x128_1_0_0_1_n_n.lhsIdx i c 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem panel_rhs1 (i : S400x128.Idx) (c : dot_S400x10000_S10000x128_S400x128_1_0_0_1_n_n.contr.Idx) : (dot_S400x10000_S10000x128_S400x128_1_0_0_1_n_n.rhsIdx i c 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The 400 × 10000 panel times the 10000 × 128 features, into zero: entry (p, q) is the sum over the 10000 nodes. -/
theorem panel_apply {φ₁ φ₂ : FTy} (L : FVec Ideal S400x10000 φ₁) (R : FVec Ideal S10000x128 φ₂) (p : Fin 400) (q : Fin 128) :
    matmul (F := Ideal) dot_S400x10000_S10000x128_S400x128_1_0_0_1_n_n none L R (constant (F := Ideal) S400x128 .f32 0x00000000#32) (ix2 p q)
      = ∑ k : Fin 10000, L (ix2 p k) * R (ix2 k q) := by
  show FloatOps.matmul dot_S400x10000_S10000x128_S400x128_1_0_0_1_n_n none L R (constant (F := Ideal) S400x128 .f32 0x00000000#32) (ix2 p q) = _
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p q) ((contrEquiv1 dot_S400x10000_S10000x128_S400x128_1_0_0_1_n_n 10000 rfl rfl).symm k) = ix2 p k := funext fun a => Fin.ext (by
    match a with
    | ⟨0, _⟩ => exact panel_lhs0 _ _
    | ⟨1, _⟩ => exact (dot_S400x10000_S10000x128_S400x128_1_0_0_1_n_n.lhsIdx_val_of_single rfl _ _).trans hk)
  have er : dot_S400x10000_S10000x128_S400x128_1_0_0_1_n_n.rhsIdx (ix2 p q) ((contrEquiv1 dot_S400x10000_S10000x128_S400x128_1_0_0_1_n_n 10000 rfl rfl).symm k) = ix2 k q := funext fun a => Fin.ext (by
    match a with
    | ⟨0, _⟩ => exact (dot_S400x10000_S10000x128_S400x128_1_0_0_1_n_n.rhsIdx_val_of_single rfl _ _).trans hk
    | ⟨1, _⟩ => exact panel_rhs1 _ _)
  rw [el, er]

theorem block_lhs0 (i : S400x128.Idx) (c : dot_S400x128_S128x128_S400x128_1_0_0_1_n_n.contr.Idx) : (dot_S400x128_S128x128_S400x128_1_0_0_1_n_n.lhsIdx i c 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem block_rhs1 (i : S400x128.Idx) (c : dot_S400x128_S128x128_S400x128_1_0_0_1_n_n.contr.Idx) : (dot_S400x128_S128x128_S400x128_1_0_0_1_n_n.rhsIdx i c 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- 400 × 128 rows times a 128 × 128 half of the weights, into zero: entry (p, q) is the sum over the 128 features. -/
theorem block_apply {φ₁ φ₂ : FTy} (L : FVec Ideal S400x128 φ₁) (R : FVec Ideal S128x128 φ₂) (p : Fin 400) (q : Fin 128) :
    matmul (F := Ideal) dot_S400x128_S128x128_S400x128_1_0_0_1_n_n none L R (constant (F := Ideal) S400x128 .f32 0x00000000#32) (ix2 p q)
      = ∑ k : Fin 128, L (ix2 p k) * R (ix2 k q) := by
  show FloatOps.matmul dot_S400x128_S128x128_S400x128_1_0_0_1_n_n none L R (constant (F := Ideal) S400x128 .f32 0x00000000#32) (ix2 p q) = _
  rw [Ideal.matmul_constant_zero_apply, ← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 p q) ((contrEquiv1 dot_S400x128_S128x128_S400x128_1_0_0_1_n_n 128 rfl rfl).symm k) = ix2 p k := funext fun a => Fin.ext (by
    match a with
    | ⟨0, _⟩ => exact block_lhs0 _ _
    | ⟨1, _⟩ => exact (dot_S400x128_S128x128_S400x128_1_0_0_1_n_n.lhsIdx_val_of_single rfl _ _).trans hk)
  have er : dot_S400x128_S128x128_S400x128_1_0_0_1_n_n.rhsIdx (ix2 p q) ((contrEquiv1 dot_S400x128_S128x128_S400x128_1_0_0_1_n_n 128 rfl rfl).symm k) = ix2 k q := funext fun a => Fin.ext (by
    match a with
    | ⟨0, _⟩ => exact (dot_S400x128_S128x128_S400x128_1_0_0_1_n_n.rhsIdx_val_of_single rfl _ _).trans hk
    | ⟨1, _⟩ => exact block_rhs1 _ _)
  rw [el, er]

/-! ## The payloads at coordinates -/

/-- What a point of the first layer stores at (p, q): its own features through the upper weights, its aggregate
    through the lower weights, the bias of column q, and `max` with 0. -/
theorem pay0_apply (v0 : Vec Ideal S400x10000 .f32) (v2 : Vec Ideal S10000x128 .bf16) (v5 : Vec Ideal S400x128 .f32)
    (v6 v8 : Vec Ideal S128x128 .f32) (v11 : Vec Ideal S1x128 .f32) (p : Fin 400) (q : Fin 128) :
    k0_pay1 (F := Ideal) v0 v2 v5 v6 v8 v11 (ix2 p q)
      = max ((∑ k : Fin 128, v5 (ix2 p k) * v6 (ix2 k q)
                + ∑ k : Fin 128, (∑ j : Fin 10000, v0 (ix2 p j) * v2 (ix2 j k)) * v8 (ix2 k q))
              + v11 (ix2 (0 : Fin 1) q)) 0 := by
  unfold k0_pay1
  show max ((matmul (F := Ideal) dot_S400x128_S128x128_S400x128_1_0_0_1_n_n none v5 v6 (constant (F := Ideal) S400x128 .f32 0x00000000#32) (ix2 p q)
              + matmul (F := Ideal) dot_S400x128_S128x128_S400x128_1_0_0_1_n_n none
                  (matmul (F := Ideal) dot_S400x10000_S10000x128_S400x128_1_0_0_1_n_n none (truncf .bf16 v0 bitsLt_bf16_f32)
                    (shapeCast S10000x128 v2 shapeCasts_S10000x128_S10000x128) (constant (F := Ideal) S400x128 .f32 0x00000000#32))
                  v8 (constant (F := Ideal) S400x128 .f32 0x00000000#32) (ix2 p q))
            + broadcastTo S400x128 (shapeCast S1x128 v11 shapeCasts_S1x128_S1x128) broadcasts_S1x128_S400x128 (ix2 p q))
          (Ideal.ofBits .f32 0x00000000#32) = _
  rw [block_apply, block_apply, broadcastTo_1b_ab_apply, shapeCast_self, shapeCast_self, Ideal.ofBits_zero_f32]
  simp only [panel_apply, truncf_apply]

/-- What a point of the second layer stores at (p, q): the same, then its own feature (p, q) added back and `max`
    with 0 again. -/
theorem pay1_apply (v0 : Vec Ideal S400x10000 .f32) (v2 : Vec Ideal S10000x128 .bf16) (v5 : Vec Ideal S400x128 .f32)
    (v7 v9 : Vec Ideal S128x128 .f32) (v12 : Vec Ideal S1x128 .f32) (p : Fin 400) (q : Fin 128) :
    k1_pay1 (F := Ideal) v0 v2 v5 v7 v9 v12 (ix2 p q)
      = max (max ((∑ k : Fin 128, v5 (ix2 p k) * v7 (ix2 k q)
                    + ∑ k : Fin 128, (∑ j : Fin 10000, v0 (ix2 p j) * v2 (ix2 j k)) * v9 (ix2 k q))
                  + v12 (ix2 (0 : Fin 1) q)) 0 + v5 (ix2 p q)) 0 := by
  unfold k1_pay1
  show max (max ((matmul (F := Ideal) dot_S400x128_S128x128_S400x128_1_0_0_1_n_n none (shapeCast S400x128 v5 shapeCasts_S400x128_S400x128) v7 (constant (F := Ideal) S400x128 .f32 0x00000000#32) (ix2 p q)
              + matmul (F := Ideal) dot_S400x128_S128x128_S400x128_1_0_0_1_n_n none
                  (matmul (F := Ideal) dot_S400x10000_S10000x128_S400x128_1_0_0_1_n_n none (truncf .bf16 v0 bitsLt_bf16_f32)
                    (shapeCast S10000x128 v2 shapeCasts_S10000x128_S10000x128) (constant (F := Ideal) S400x128 .f32 0x00000000#32))
                  v9 (constant (F := Ideal) S400x128 .f32 0x00000000#32) (ix2 p q))
            + broadcastTo S400x128 (shapeCast S1x128 v12 shapeCasts_S1x128_S1x128) broadcasts_S1x128_S400x128 (ix2 p q))
          (Ideal.ofBits .f32 0x00000000#32) + shapeCast S400x128 v5 shapeCasts_S400x128_S400x128 (ix2 p q))
        (Ideal.ofBits .f32 0x00000000#32) = _
  rw [block_apply, block_apply, broadcastTo_1b_ab_apply, shapeCast_self, shapeCast_self, shapeCast_self, Ideal.ofBits_zero_f32]
  simp only [panel_apply, truncf_apply]

end Cert.KernelIdeal.Hand

end
-- ==== Proof.Blocks.lean ====
/-
  From one grid point's blocks to the whole result array of a region. Each of the two regions runs the layer on a grid
  of 25 points; point `t` holds rows `400 t … 400 t + 399` of the adjacency matrix and of the features it transforms,
  all of the features it aggregates, of the weights and of the bias row, and writes rows `400 t … 400 t + 399` of the
  result. Read at one element, what a point stores is the specification's layer at row `400 t + p` of the arrays the
  region finds; the 25 blocks tile the 10000 rows, so the result array ends holding the layer of those arrays — stated
  for any contents `V` the region may be entered with.
-/
import proofs.«104888_g44830868636165_cont_8to1_c_628_6_alg».proof.Proof.Gen.KernelIdeal.Frame
import proofs.«104888_g44830868636165_cont_8to1_c_628_6_alg».proof.Proof.Payload
import proofs.«104888_g44830868636165_cont_8to1_c_628_6_alg».proof.Proof.GcnSpec
import Idealize.ShloMosaic.Lib.Pipeline.Value
import Idealize.ShloMosaic.Lib.ValueIdx

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open Cert.Gcn (lo hi)

theorem hz : (![0, 0] : Fin 2 → Nat) = fun _ => 0 := funext fun a => by fin_cases a <;> rfl

/-! ## The two halves of the weights, loaded -/

/-- The load of the upper 128 rows of the weights reads row `k`. -/
theorem ld_upper (x3 : Vec Ideal S256x128 .f32) (k q : Fin 128) :
    View.ld x3 (Rect.unit (s := S256x128) ![0, 0] S128x128.size inb_S256x128_S128x128_0_0) (ix2 k q) = x3 (ix2 (lo k) q) := by
  show x3 ((Rect.unit (s := S256x128) ![0, 0] S128x128.size inb_S256x128_S128x128_0_0).emb (ix2 k q)) = _
  refine congrArg x3 (funext fun a => Fin.ext ?_)
  rw [Rect.emb_apply]
  match a with
  | ⟨0, _⟩ => show 0 + 1 * k.val = k.val; omega
  | ⟨1, _⟩ => show 0 + 1 * q.val = q.val; omega

/-- The load of the lower 128 rows reads row `128 + k`. -/
theorem ld_lower (x3 : Vec Ideal S256x128 .f32) (k q : Fin 128) :
    View.ld x3 (Rect.unit (s := S256x128) ![128, 0] S128x128.size inb_S256x128_S128x128_128_0) (ix2 k q) = x3 (ix2 (hi k) q) := by
  show x3 ((Rect.unit (s := S256x128) ![128, 0] S128x128.size inb_S256x128_S128x128_128_0).emb (ix2 k q)) = _
  refine congrArg x3 (funext fun a => Fin.ext ?_)
  rw [Rect.emb_apply]
  match a with
  | ⟨0, _⟩ => show 128 + 1 * k.val = 128 + k.val; omega
  | ⟨1, _⟩ => show 0 + 1 * q.val = q.val; omega

variable (V : (c : Dev nD) → (b : Ref sig .tc) → Buf (Elt Ideal) ((c : Thread nD τ).loc b))

/-! ## Region 0: the first layer -/

/-- Where each window's block sits at grid point `t`: the adjacency panel, the point's own features and the result
    move down with the point (block row `t`); the other three windows always hold their whole array. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What the body leaves at (p, q) of the result block, from the five input blocks. -/
theorem out0_apply (x0 : Vec Ideal S400x10000 .f32) (x1 : Vec Ideal S10000x128 .bf16) (x2 : Vec Ideal S400x128 .f32)
    (x3 : Vec Ideal S256x128 .f32) (x4 : Vec Ideal S1x128 .f32) (p : Fin 400) (q : Fin 128) :
    out0_5 (F := Ideal) x0 x1 x2 x3 x4 (ix2 p q) = max ((∑ k : Fin 128, x2 (ix2 p k) * x3 (ix2 (lo k) q)
                + ∑ k : Fin 128, (∑ j : Fin 10000, x0 (ix2 p j) * x1 (ix2 j k)) * x3 (ix2 (hi k) q))
              + x4 (ix2 (0 : Fin 1) q)) 0 := by
  unfold out0_5
  rw [View.canon_unit_zero hz]
  simp only [View.ld_unit_zero (S := S400x10000) hz, View.ld_unit_zero (S := S10000x128) hz,
    View.ld_unit_zero (S := S400x128) hz, View.ld_unit_zero (S := S1x128) hz]
  rw [pay0_apply]
  have hu : ∀ k : Fin 128, x2 (ix2 p k) * View.ld x3 r0_3 (ix2 k q) = x2 (ix2 p k) * x3 (ix2 (lo k) q) :=
    fun k => by rw [ld_upper]
  have hl : ∀ k : Fin 128, (∑ j : Fin 10000, x0 (ix2 p j) * x1 (ix2 j k)) * View.ld x3 r0_4 (ix2 k q) = (∑ j : Fin 10000, x0 (ix2 p j) * x1 (ix2 j k)) * x3 (ix2 (hi k) q) :=
    fun k => by rw [ld_lower]
  rw [Finset.sum_congr rfl fun k _ => hu k, Finset.sum_congr rfl fun k _ => hl k]

/-- A point whose blocks are rows `r` of the adjacency matrix and of the features, and the whole of the other three
    arrays, stores row `r` of the layer. -/
theorem point0 (A : Cert.Gcn.Mat 10000 10000) (u v : Cert.Gcn.Mat 10000 128) (W : Cert.Gcn.Mat 256 128) (b : Fin 128 → EReal)
    (x0 : Vec Ideal S400x10000 .f32) (x1 : Vec Ideal S10000x128 .bf16) (x2 : Vec Ideal S400x128 .f32)
    (x3 : Vec Ideal S256x128 .f32) (x4 : Vec Ideal S1x128 .f32) (r : Fin 10000) (p : Fin 400) (q : Fin 128)
    (h0 : ∀ j : Fin 10000, x0 (ix2 p j) = A (ix2 r j)) (h1 : ∀ (j : Fin 10000) (k : Fin 128), x1 (ix2 j k) = u (ix2 j k))
    (h2 : ∀ k : Fin 128, x2 (ix2 p k) = v (ix2 r k)) (h3 : ∀ (k : Fin 256) (q : Fin 128), x3 (ix2 k q) = W (ix2 k q))
    (h4 : ∀ q : Fin 128, x4 (ix2 (0 : Fin 1) q) = b q) :
    out0_5 (F := Ideal) x0 x1 x2 x3 x4 (ix2 p q) = Cert.Gcn.conv A u v W b (ix2 r q) := by
  rw [out0_apply]
  simp only [h0, h1, h2, h3, h4]
  rfl

/-! ### Region 0's blocks as rows of the arrays the region finds -/

/-- The adjacency window's block at point `t` is rows `400 t … 400 t + 399` of the adjacency matrix. -/
theorem panel0 (c : Dev nD) (t : Fin cfg0.N) (p : Fin 400) (j : Fin 10000) (r : Fin 10000) (hr : r.val = t.val * 400 + p.val) :
    iblk0 V c 0 t (ix2 p j) = V c main_arg1 (ix2 r j) := by
  have e0 : win0_0.index t (0 : Fin 2) = t.val := (idx0 t).1
  have e1 : win0_0.index t (1 : Fin 2) = 0 := (idx0 t).2.1
  show V c main_arg1 (((cfg0.win 0).blk t).view.emb (ix2 p j)) = V c main_arg1 (ix2 r j)
  refine congrArg (V c main_arg1) (funext fun a => Fin.ext ?_)
  match a with
  | ⟨0, _⟩ => show win0_0.index t (0 : Fin 2) * 400 + 1 * p.val = r.val; rw [e0, hr]; omega
  | ⟨1, _⟩ => show win0_0.index t (1 : Fin 2) * 10000 + 1 * j.val = j.val; rw [e1]; omega

/-- The point's own features: rows `400 t … 400 t + 399` of the feature array. -/
theorem rows0 (c : Dev nD) (t : Fin cfg0.N) (p : Fin 400) (j : Fin 128) (r : Fin 10000) (hr : r.val = t.val * 400 + p.val) :
    iblk0 V c 2 t (ix2 p j) = V c main_arg0 (ix2 r j) := by
  have e0 : win0_2.index t (0 : Fin 2) = t.val := (idx0 t).2.2.2.2.1
  have e1 : win0_2.index t (1 : Fin 2) = 0 := (idx0 t).2.2.2.2.2.1
  show V c main_arg0 (((cfg0.win 2).blk t).view.emb (ix2 p j)) = V c main_arg0 (ix2 r j)
  refine congrArg (V c main_arg0) (funext fun a => Fin.ext ?_)
  match a with
  | ⟨0, _⟩ => show win0_2.index t (0 : Fin 2) * 400 + 1 * p.val = r.val; rw [e0, hr]; omega
  | ⟨1, _⟩ => show win0_2.index t (1 : Fin 2) * 128 + 1 * j.val = j.val; rw [e1]; omega

/-- The aggregation's source is resident: its block is the whole array at every point. -/
theorem whole0_1 (c : Dev nD) (t : Fin cfg0.N) (y : S10000x128.Idx) : iblk0 V c 1 t y = V c main_v0 y := by
  have e0 : win0_1.index t (0 : Fin 2) = 0 := (idx0 t).2.2.1
  have e1 : win0_1.index t (1 : Fin 2) = 0 := (idx0 t).2.2.2.1
  show V c main_v0 (((cfg0.win 1).blk t).view.emb y) = V c main_v0 y
  refine congrArg (V c main_v0) (funext fun a => Fin.ext ?_)
  match a with
  | ⟨0, _⟩ => show win0_1.index t (0 : Fin 2) * 10000 + 1 * (y 0).val = (y 0).val; rw [e0]; omega
  | ⟨1, _⟩ => show win0_1.index t (1 : Fin 2) * 128 + 1 * (y 1).val = (y 1).val; rw [e1]; omega

/-- The weights are resident: their block is the whole array at every point. -/
theorem whole0_3 (c : Dev nD) (t : Fin cfg0.N) (y : S256x128.Idx) : iblk0 V c 3 t y = V c main_arg2 y := by
  have e0 : win0_3.index t (0 : Fin 2) = 0 := (idx0 t).2.2.2.2.2.2.1
  have e1 : win0_3.index t (1 : Fin 2) = 0 := (idx0 t).2.2.2.2.2.2.2.1
  show V c main_arg2 (((cfg0.win 3).blk t).view.emb y) = V c main_arg2 y
  refine congrArg (V c main_arg2) (funext fun a => Fin.ext ?_)
  match a with
  | ⟨0, _⟩ => show win0_3.index t (0 : Fin 2) * 256 + 1 * (y 0).val = (y 0).val; rw [e0]; omega
  | ⟨1, _⟩ => show win0_3.index t (1 : Fin 2) * 128 + 1 * (y 1).val = (y 1).val; rw [e1]; omega

/-- The bias row is resident: its block is the whole array at every point. -/
theorem whole0_4 (c : Dev nD) (t : Fin cfg0.N) (y : S1x128.Idx) : iblk0 V c 4 t y = V c main_v1 y := by
  have e0 : win0_4.index t (0 : Fin 2) = 0 := (idx0 t).2.2.2.2.2.2.2.2.1
  have e1 : win0_4.index t (1 : Fin 2) = 0 := (idx0 t).2.2.2.2.2.2.2.2.2.1
  show V c main_v1 (((cfg0.win 4).blk t).view.emb y) = V c main_v1 y
  refine congrArg (V c main_v1) (funext fun a => Fin.ext ?_)
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- WHAT POINT `t` WRITES BACK is rows `400 t … 400 t + 399` of the layer of the arrays the region finds. -/
theorem flushed0_eq (c : Dev nD) (t : Fin cfg0.N) :
    (dat0 V c).flushed 5 t = ((cfg0.win 5).blk t).view.read (Elt Ideal) (Cert.Gcn.conv (V c main_arg1) (V c main_v0) (V c main_arg0) (V c main_arg2) (fun q => V c main_v1 (ix2 (0 : Fin 1) q))) := by
  show (cfg0.win 5).cut (grid0.coords t) ((dat0 V c).after 5 t) = _
  rw [after0_5]
  have e0 : win0_5.index t (0 : Fin 2) = t.val := (idx0 t).2.2.2.2.2.2.2.2.2.2.1
  have e1 : win0_5.index t (1 : Fin 2) = 0 := (idx0 t).2.2.2.2.2.2.2.2.2.2.2
  have ht : t.val < 25 := Nat.lt_of_lt_of_eq t.isLt N_0
  refine funext fun (y : S400x128.Idx) => ?_
  obtain ⟨p, q, rfl⟩ : ∃ (p : Fin 400) (q : Fin 128), y = ix2 p q := ⟨y 0, y 1, eq_ix2 y⟩
  have hp : p.val < 400 := p.isLt
  have hout : ((cfg0.win 5).blk t).view.emb (ix2 p q) = ix2 (⟨t.val * 400 + p.val, by omega⟩ : Fin 10000) q :=
    funext fun a => Fin.ext (by
      match a with
      | ⟨0, _⟩ => show win0_5.index t (0 : Fin 2) * 400 + 1 * p.val = t.val * 400 + p.val; rw [e0]; omega
      | ⟨1, _⟩ => show win0_5.index t (1 : Fin 2) * 128 + 1 * q.val = q.val; rw [e1]; omega)
  show out0_5 (iblk0 V c 0 t) (iblk0 V c 1 t) (iblk0 V c 2 t) (iblk0 V c 3 t) (iblk0 V c 4 t) (ix2 p q)
    = (Cert.Gcn.conv (V c main_arg1) (V c main_v0) (V c main_arg0) (V c main_arg2) (fun q => V c main_v1 (ix2 (0 : Fin 1) q))) (((cfg0.win 5).blk t).view.emb (ix2 p q))
  rw [hout]
  exact point0 (V c main_arg1) (V c main_v0) (V c main_arg0) (V c main_arg2) (fun q => V c main_v1 (ix2 (0 : Fin 1) q))
    (iblk0 V c 0 t) (iblk0 V c 1 t) (iblk0 V c 2 t) (iblk0 V c 3 t) (iblk0 V c 4 t)
    ⟨t.val * 400 + p.val, by omega⟩ p q
    (fun j => panel0 V c t p j _ rfl) (fun j k => whole0_1 V c t (ix2 j k)) (fun k => rows0 V c t p k _ rfl)
    (fun k q => whole0_3 V c t (ix2 k q)) (fun q => whole0_4 V c t (ix2 (0 : Fin 1) q))

/-- Every row of the result lies in some point's block: row `r` in that of point `r / 400`. -/
theorem cover0 (i : S10000x128.Idx) :
    ∃ t : Fin cfg0.N, (cfg0.win 5).flush t = true ∧ i ∈ ((cfg0.win 5).blk t).view.set := by
  have h0 : (i 0).val < 10000 := idx2_lt0 i
  have h1 : (i 1).val < 128 := idx2_lt1 i
  have hlt : (i 0).val / 400 < cfg0.N := by rw [show cfg0.N = 25 from N_0]; omega
  have e0 : win0_5.index ⟨(i 0).val / 400, hlt⟩ (0 : Fin 2) = (i 0).val / 400 := (idx0 ⟨(i 0).val / 400, hlt⟩).2.2.2.2.2.2.2.2.2.2.1
  have e1 : win0_5.index ⟨(i 0).val / 400, hlt⟩ (1 : Fin 2) = 0 := (idx0 ⟨(i 0).val / 400, hlt⟩).2.2.2.2.2.2.2.2.2.2.2
  refine ⟨⟨(i 0).val / 400, hlt⟩, flush0_5 _, ?_⟩
  show i ∈ ((View.whole main_v2).slice (win0_5.rect ⟨(i 0).val / 400, hlt⟩)).set
  rw [View.set_slice_whole, Rect.mem_set_unit]
  intro a
  match a with
  | ⟨0, _⟩ =>
    show win0_5.index ⟨(i 0).val / 400, hlt⟩ (0 : Fin 2) * 400 ≤ (i 0).val
      ∧ (i 0).val < win0_5.index ⟨(i 0).val / 400, hlt⟩ (0 : Fin 2) * 400 + 400
    rw [e0]; omega
  | ⟨1, _⟩ =>
    show win0_5.index ⟨(i 0).val / 400, hlt⟩ (1 : Fin 2) * 128 ≤ (i 1).val
      ∧ (i 1).val < win0_5.index ⟨(i 0).val / 400, hlt⟩ (1 : Fin 2) * 128 + 128
    rw [e1]; omega

/-- THE RESULT ARRAY after the region: the layer of the arrays the region finds. -/
theorem final0 (c : Dev nD) : (dat0 V c).arrAt 5 cfg0.N = Cert.Gcn.conv (V c main_arg1) (V c main_v0) (V c main_arg0) (V c main_arg2) (fun q => V c main_v1 (ix2 (0 : Fin 1) q)) :=
  (dat0 V c).arrAt_eq_of_cover 5 _ (fun t _ => flushed0_eq V c t) (cover0)

/-! ## Region 1: the second layer, with the residual -/

/-- Where each window's block sits at grid point `t`: the adjacency panel, the point's own features and the result
    move down with the point (block row `t`); the other three windows always hold their whole array. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What the body leaves at (p, q) of the result block, from the five input blocks. -/
theorem out1_apply (x0 : Vec Ideal S400x10000 .f32) (x1 : Vec Ideal S10000x128 .bf16) (x2 : Vec Ideal S400x128 .f32)
    (x3 : Vec Ideal S256x128 .f32) (x4 : Vec Ideal S1x128 .f32) (p : Fin 400) (q : Fin 128) :
    out1_5 (F := Ideal) x0 x1 x2 x3 x4 (ix2 p q) = max (max ((∑ k : Fin 128, x2 (ix2 p k) * x3 (ix2 (lo k) q)
                + ∑ k : Fin 128, (∑ j : Fin 10000, x0 (ix2 p j) * x1 (ix2 j k)) * x3 (ix2 (hi k) q))
              + x4 (ix2 (0 : Fin 1) q)) 0 + x2 (ix2 p q)) 0 := by
  unfold out1_5
  rw [View.canon_unit_zero hz]
  simp only [View.ld_unit_zero (S := S400x10000) hz, View.ld_unit_zero (S := S10000x128) hz,
    View.ld_unit_zero (S := S400x128) hz, View.ld_unit_zero (S := S1x128) hz]
  rw [pay1_apply]
  have hu : ∀ k : Fin 128, x2 (ix2 p k) * View.ld x3 r1_3 (ix2 k q) = x2 (ix2 p k) * x3 (ix2 (lo k) q) :=
    fun k => by rw [ld_upper]
  have hl : ∀ k : Fin 128, (∑ j : Fin 10000, x0 (ix2 p j) * x1 (ix2 j k)) * View.ld x3 r1_4 (ix2 k q) = (∑ j : Fin 10000, x0 (ix2 p j) * x1 (ix2 j k)) * x3 (ix2 (hi k) q) :=
    fun k => by rw [ld_lower]
  rw [Finset.sum_congr rfl fun k _ => hu k, Finset.sum_congr rfl fun k _ => hl k]

/-- A point whose blocks are rows `r` of the adjacency matrix and of the features, and the whole of the other three
    arrays, stores row `r` of the layer. -/
theorem point1 (A : Cert.Gcn.Mat 10000 10000) (u v : Cert.Gcn.Mat 10000 128) (W : Cert.Gcn.Mat 256 128) (b : Fin 128 → EReal)
    (x0 : Vec Ideal S400x10000 .f32) (x1 : Vec Ideal S10000x128 .bf16) (x2 : Vec Ideal S400x128 .f32)
    (x3 : Vec Ideal S256x128 .f32) (x4 : Vec Ideal S1x128 .f32) (r : Fin 10000) (p : Fin 400) (q : Fin 128)
    (h0 : ∀ j : Fin 10000, x0 (ix2 p j) = A (ix2 r j)) (h1 : ∀ (j : Fin 10000) (k : Fin 128), x1 (ix2 j k) = u (ix2 j k))
    (h2 : ∀ k : Fin 128, x2 (ix2 p k) = v (ix2 r k)) (h3 : ∀ (k : Fin 256) (q : Fin 128), x3 (ix2 k q) = W (ix2 k q))
    (h4 : ∀ q : Fin 128, x4 (ix2 (0 : Fin 1) q) = b q) :
    out1_5 (F := Ideal) x0 x1 x2 x3 x4 (ix2 p q) = Cert.Gcn.convRes A u v W b (ix2 r q) := by
  rw [out1_apply]
  simp only [h0, h1, h2, h3, h4]
  rfl

/-! ### Region 1's blocks as rows of the arrays the region finds -/

/-- The adjacency window's block at point `t` is rows `400 t … 400 t + 399` of the adjacency matrix. -/
theorem panel1 (c : Dev nD) (t : Fin cfg1.N) (p : Fin 400) (j : Fin 10000) (r : Fin 10000) (hr : r.val = t.val * 400 + p.val) :
    iblk1 V c 0 t (ix2 p j) = V c main_arg1 (ix2 r j) := by
  have e0 : win1_0.index t (0 : Fin 2) = t.val := (idx1 t).1
  have e1 : win1_0.index t (1 : Fin 2) = 0 := (idx1 t).2.1
  show V c main_arg1 (((cfg1.win 0).blk t).view.emb (ix2 p j)) = V c main_arg1 (ix2 r j)
  refine congrArg (V c main_arg1) (funext fun a => Fin.ext ?_)
  match a with
  | ⟨0, _⟩ => show win1_0.index t (0 : Fin 2) * 400 + 1 * p.val = r.val; rw [e0, hr]; omega
  | ⟨1, _⟩ => show win1_0.index t (1 : Fin 2) * 10000 + 1 * j.val = j.val; rw [e1]; omega

/-- The point's own features: rows `400 t … 400 t + 399` of the feature array. -/
theorem rows1 (c : Dev nD) (t : Fin cfg1.N) (p : Fin 400) (j : Fin 128) (r : Fin 10000) (hr : r.val = t.val * 400 + p.val) :
    iblk1 V c 2 t (ix2 p j) = V c main_v2 (ix2 r j) := by
  have e0 : win1_2.index t (0 : Fin 2) = t.val := (idx1 t).2.2.2.2.1
  have e1 : win1_2.index t (1 : Fin 2) = 0 := (idx1 t).2.2.2.2.2.1
  show V c main_v2 (((cfg1.win 2).blk t).view.emb (ix2 p j)) = V c main_v2 (ix2 r j)
  refine congrArg (V c main_v2) (funext fun a => Fin.ext ?_)
  match a with
  | ⟨0, _⟩ => show win1_2.index t (0 : Fin 2) * 400 + 1 * p.val = r.val; rw [e0, hr]; omega
  | ⟨1, _⟩ => show win1_2.index t (1 : Fin 2) * 128 + 1 * j.val = j.val; rw [e1]; omega

/-- The aggregation's source is resident: its block is the whole array at every point. -/
theorem whole1_1 (c : Dev nD) (t : Fin cfg1.N) (y : S10000x128.Idx) : iblk1 V c 1 t y = V c main_v3 y := by
  have e0 : win1_1.index t (0 : Fin 2) = 0 := (idx1 t).2.2.1
  have e1 : win1_1.index t (1 : Fin 2) = 0 := (idx1 t).2.2.2.1
  show V c main_v3 (((cfg1.win 1).blk t).view.emb y) = V c main_v3 y
  refine congrArg (V c main_v3) (funext fun a => Fin.ext ?_)
  match a with
  | ⟨0, _⟩ => show win1_1.index t (0 : Fin 2) * 10000 + 1 * (y 0).val = (y 0).val; rw [e0]; omega
  | ⟨1, _⟩ => show win1_1.index t (1 : Fin 2) * 128 + 1 * (y 1).val = (y 1).val; rw [e1]; omega

/-- The weights are resident: their block is the whole array at every point. -/
theorem whole1_3 (c : Dev nD) (t : Fin cfg1.N) (y : S256x128.Idx) : iblk1 V c 3 t y = V c main_arg4 y := by
  have e0 : win1_3.index t (0 : Fin 2) = 0 := (idx1 t).2.2.2.2.2.2.1
  have e1 : win1_3.index t (1 : Fin 2) = 0 := (idx1 t).2.2.2.2.2.2.2.1
  show V c main_arg4 (((cfg1.win 3).blk t).view.emb y) = V c main_arg4 y
  refine congrArg (V c main_arg4) (funext fun a => Fin.ext ?_)
  match a with
  | ⟨0, _⟩ => show win1_3.index t (0 : Fin 2) * 256 + 1 * (y 0).val = (y 0).val; rw [e0]; omega
  | ⟨1, _⟩ => show win1_3.index t (1 : Fin 2) * 128 + 1 * (y 1).val = (y 1).val; rw [e1]; omega

/-- The bias row is resident: its block is the whole array at every point. -/
theorem whole1_4 (c : Dev nD) (t : Fin cfg1.N) (y : S1x128.Idx) : iblk1 V c 4 t y = V c main_v4 y := by
  have e0 : win1_4.index t (0 : Fin 2) = 0 := (idx1 t).2.2.2.2.2.2.2.2.1
  have e1 : win1_4.index t (1 : Fin 2) = 0 := (idx1 t).2.2.2.2.2.2.2.2.2.1
  show V c main_v4 (((cfg1.win 4).blk t).view.emb y) = V c main_v4 y
  refine congrArg (V c main_v4) (funext fun a => Fin.ext ?_)
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- WHAT POINT `t` WRITES BACK is rows `400 t … 400 t + 399` of the layer of the arrays the region finds. -/
theorem flushed1_eq (c : Dev nD) (t : Fin cfg1.N) :
    (dat1 V c).flushed 5 t = ((cfg1.win 5).blk t).view.read (Elt Ideal) (Cert.Gcn.convRes (V c main_arg1) (V c main_v3) (V c main_v2) (V c main_arg4) (fun q => V c main_v4 (ix2 (0 : Fin 1) q))) := by
  show (cfg1.win 5).cut (grid1.coords t) ((dat1 V c).after 5 t) = _
  rw [after1_5]
  have e0 : win1_5.index t (0 : Fin 2) = t.val := (idx1 t).2.2.2.2.2.2.2.2.2.2.1
  have e1 : win1_5.index t (1 : Fin 2) = 0 := (idx1 t).2.2.2.2.2.2.2.2.2.2.2
  have ht : t.val < 25 := Nat.lt_of_lt_of_eq t.isLt N_1
  refine funext fun (y : S400x128.Idx) => ?_
  obtain ⟨p, q, rfl⟩ : ∃ (p : Fin 400) (q : Fin 128), y = ix2 p q := ⟨y 0, y 1, eq_ix2 y⟩
  have hp : p.val < 400 := p.isLt
  have hout : ((cfg1.win 5).blk t).view.emb (ix2 p q) = ix2 (⟨t.val * 400 + p.val, by omega⟩ : Fin 10000) q :=
    funext fun a => Fin.ext (by
      match a with
      | ⟨0, _⟩ => show win1_5.index t (0 : Fin 2) * 400 + 1 * p.val = t.val * 400 + p.val; rw [e0]; omega
      | ⟨1, _⟩ => show win1_5.index t (1 : Fin 2) * 128 + 1 * q.val = q.val; rw [e1]; omega)
  show out1_5 (iblk1 V c 0 t) (iblk1 V c 1 t) (iblk1 V c 2 t) (iblk1 V c 3 t) (iblk1 V c 4 t) (ix2 p q)
    = (Cert.Gcn.convRes (V c main_arg1) (V c main_v3) (V c main_v2) (V c main_arg4) (fun q => V c main_v4 (ix2 (0 : Fin 1) q))) (((cfg1.win 5).blk t).view.emb (ix2 p q))
  rw [hout]
  exact point1 (V c main_arg1) (V c main_v3) (V c main_v2) (V c main_arg4) (fun q => V c main_v4 (ix2 (0 : Fin 1) q))
    (iblk1 V c 0 t) (iblk1 V c 1 t) (iblk1 V c 2 t) (iblk1 V c 3 t) (iblk1 V c 4 t)
    ⟨t.val * 400 + p.val, by omega⟩ p q
    (fun j => panel1 V c t p j _ rfl) (fun j k => whole1_1 V c t (ix2 j k)) (fun k => rows1 V c t p k _ rfl)
    (fun k q => whole1_3 V c t (ix2 k q)) (fun q => whole1_4 V c t (ix2 (0 : Fin 1) q))

/-- Every row of the result lies in some point's block: row `r` in that of point `r / 400`. -/
theorem cover1 (i : S10000x128.Idx) :
    ∃ t : Fin cfg1.N, (cfg1.win 5).flush t = true ∧ i ∈ ((cfg1.win 5).blk t).view.set := by
  have h0 : (i 0).val < 10000 := idx2_lt0 i
  have h1 : (i 1).val < 128 := idx2_lt1 i
  have hlt : (i 0).val / 400 < cfg1.N := by rw [show cfg1.N = 25 from N_1]; omega
  have e0 : win1_5.index ⟨(i 0).val / 400, hlt⟩ (0 : Fin 2) = (i 0).val / 400 := (idx1 ⟨(i 0).val / 400, hlt⟩).2.2.2.2.2.2.2.2.2.2.1
  have e1 : win1_5.index ⟨(i 0).val / 400, hlt⟩ (1 : Fin 2) = 0 := (idx1 ⟨(i 0).val / 400, hlt⟩).2.2.2.2.2.2.2.2.2.2.2
  refine ⟨⟨(i 0).val / 400, hlt⟩, flush1_5 _, ?_⟩
  show i ∈ ((View.whole main_v5).slice (win1_5.rect ⟨(i 0).val / 400, hlt⟩)).set
  rw [View.set_slice_whole, Rect.mem_set_unit]
  intro a
  match a with
  | ⟨0, _⟩ =>
    show win1_5.index ⟨(i 0).val / 400, hlt⟩ (0 : Fin 2) * 400 ≤ (i 0).val
      ∧ (i 0).val < win1_5.index ⟨(i 0).val / 400, hlt⟩ (0 : Fin 2) * 400 + 400
    rw [e0]; omega
  | ⟨1, _⟩ =>
    show win1_5.index ⟨(i 0).val / 400, hlt⟩ (1 : Fin 2) * 128 ≤ (i 1).val
      ∧ (i 1).val < win1_5.index ⟨(i 0).val / 400, hlt⟩ (1 : Fin 2) * 128 + 128
    rw [e1]; omega

/-- THE RESULT ARRAY after the region: the layer of the arrays the region finds. -/
theorem final1 (c : Dev nD) : (dat1 V c).arrAt 5 cfg1.N = Cert.Gcn.convRes (V c main_arg1) (V c main_v3) (V c main_v2) (V c main_arg4) (fun q => V c main_v4 (ix2 (0 : Fin 1) q)) :=
  (dat1 V c).arrAt_eq_of_cover 5 _ (fun t _ => flushed1_eq V c t) (cover1)

end Cert.KernelIdeal.Hand

end
-- ==== Proof.KernelNet.lean ====
/-
  The kernel's result array is the network of its six arguments. @main is four segments: the features change float
  format (the identity on the extended reals) and the first bias is reshaped from a vector to a 1 × 128 row; the first
  region runs the layer on them and the adjacency matrix and first weights; its result changes format and the second
  bias is reshaped; the second region runs the layer with the residual on that result. Reading the result array back
  through the four segments: the second region's arrays are the first region's result (twice), the adjacency matrix,
  the second weights and the second bias row; the first region's are the arguments themselves.
-/
import proofs.«104888_g44830868636165_cont_8to1_c_628_6_alg».proof.Proof.Gen.KernelIdeal.Frame
import proofs.«104888_g44830868636165_cont_8to1_c_628_6_alg».proof.Proof.Blocks
import proofs.«104888_g44830868636165_cont_8to1_c_628_6_alg».proof.Proof.GcnSpec
import Idealize.ShloMosaic.Lib.StableHlo.Run
import Idealize.ShloMosaic.Lib.ValueIdx
import Idealize.ShloMosaic.Lib.ValueLayout

noncomputable section

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## What the first region finds: the arguments -/

theorem V1_adj (c : Dev nD) : V1 m ρ c main_arg1 = m ((c : Thread nD τ).loc main_arg1) := by
  show StableHlo.after hostOps0 (W0 m ρ c) (Proc.devRef .tc main_arg1) = _
  after_results <;> rfl
theorem V1_feat (c : Dev nD) : V1 m ρ c main_arg0 = m ((c : Thread nD τ).loc main_arg0) := by
  show StableHlo.after hostOps0 (W0 m ρ c) (Proc.devRef .tc main_arg0) = _
  after_results <;> rfl
theorem V1_weights (c : Dev nD) : V1 m ρ c main_arg2 = m ((c : Thread nD τ).loc main_arg2) := by
  show StableHlo.after hostOps0 (W0 m ρ c) (Proc.devRef .tc main_arg2) = _
  after_results <;> rfl
/-- The features after the change of format are the features. -/
theorem V1_feat16 (c : Dev nD) : (V1 m ρ c main_v0 : Cert.Gcn.Mat 10000 128) = m ((c : Thread nD τ).loc main_arg0) := by
  show StableHlo.after hostOps0 (W0 m ρ c) (Proc.devRef .tc main_v0) = _
  after_results <;> rfl
/-- The reshaped bias row at column `q` is the bias vector at `q`. -/
theorem V1_bias (c : Dev nD) : (fun q : Fin 128 => (V1 m ρ c main_v1 : Cert.Gcn.Mat 1 128) (ix2 (0 : Fin 1) q))
    = fun q => (m ((c : Thread nD τ).loc main_arg3) : (⟨1, ![128]⟩ : Shape).Idx → EReal) (ix1 q) := by
  have e : (V1 m ρ c main_v1 : Cert.Gcn.Mat 1 128) = shapeCast S1x128 (m ((c : Thread nD τ).loc main_arg3)) shapeCasts_S128_S1x128 := by
    show StableHlo.after hostOps0 (W0 m ρ c) (Proc.devRef .tc main_v1) = _
    after_results <;> rfl
  funext q
  rw [e]
  exact shapeCast_a_1a_apply _ _ _ _

/-! ## What the first region leaves, and what is untouched by it -/

/-- The first region's result array holds the first layer of the arguments. -/
theorem first_layer (c : Dev nD) :
    (W2 m ρ c (Proc.devRef .tc main_v2) : Cert.Gcn.Mat 10000 128)
      = Cert.Gcn.conv (m ((c : Thread nD τ).loc main_arg1)) (m ((c : Thread nD τ).loc main_arg0)) (m ((c : Thread nD τ).loc main_arg0)) (m ((c : Thread nD τ).loc main_arg2)) (fun q => (m ((c : Thread nD τ).loc main_arg3) : (⟨1, ![128]⟩ : Shape).Idx → EReal) (ix1 q)) := by
  refine (W2_arr m ρ c 5).trans ((final0 (V1 m ρ) c).trans ?_)
  rw [V1_adj, V1_feat16, V1_feat, V1_weights, V1_bias]

/-- The adjacency matrix is an input window's array of the first region: the region leaves it as it found it. -/
theorem W2_adj (c : Dev nD) : W2 m ρ c (Proc.devRef .tc main_arg1) = m ((c : Thread nD τ).loc main_arg1) :=
  (W2_arr m ρ c 0).trans (((dat0 (V1 m ρ) c).arrAt_in 0 rfl _).trans ((A_eq0 (V1 m ρ) c 0).trans (V1_adj m ρ c)))
/-- The second weights are no array of the first region and no host line before it writes them. -/
theorem W2_weights (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results <;> rfl)
/-- Nor the second bias. -/
theorem W2_biasvec (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results <;> rfl)

/-! ## What the second region finds -/

theorem V3_adj (c : Dev nD) : V3 m ρ c main_arg1 = m ((c : Thread nD τ).loc main_arg1) := by
  show StableHlo.after hostOps1 (W2 m ρ c) (Proc.devRef .tc main_arg1) = _
  after_results
  exact W2_adj m ρ c
theorem V3_weights (c : Dev nD) : V3 m ρ c main_arg4 = m ((c : Thread nD τ).loc main_arg4) := by
  show StableHlo.after hostOps1 (W2 m ρ c) (Proc.devRef .tc main_arg4) = _
  after_results
  exact W2_weights m ρ c
/-- The features the second layer transforms are the first layer's result. -/
theorem V3_feat (c : Dev nD) : (V3 m ρ c main_v2 : Cert.Gcn.Mat 10000 128)
    = Cert.Gcn.conv (m ((c : Thread nD τ).loc main_arg1)) (m ((c : Thread nD τ).loc main_arg0)) (m ((c : Thread nD τ).loc main_arg0)) (m ((c : Thread nD τ).loc main_arg2)) (fun q => (m ((c : Thread nD τ).loc main_arg3) : (⟨1, ![128]⟩ : Shape).Idx → EReal) (ix1 q)) := by
  show StableHlo.after hostOps1 (W2 m ρ c) (Proc.devRef .tc main_v2) = _
  after_results
  exact first_layer m ρ c
/-- The features it aggregates are the same numbers after the change of format. -/
theorem V3_feat16 (c : Dev nD) : (V3 m ρ c main_v3 : Cert.Gcn.Mat 10000 128)
    = Cert.Gcn.conv (m ((c : Thread nD τ).loc main_arg1)) (m ((c : Thread nD τ).loc main_arg0)) (m ((c : Thread nD τ).loc main_arg0)) (m ((c : Thread nD τ).loc main_arg2)) (fun q => (m ((c : Thread nD τ).loc main_arg3) : (⟨1, ![128]⟩ : Shape).Idx → EReal) (ix1 q)) := by
  show StableHlo.after hostOps1 (W2 m ρ c) (Proc.devRef .tc main_v3) = _
  after_results
  exact first_layer m ρ c
/-- The second bias row at column `q` is the second bias vector at `q`. -/
theorem V3_bias (c : Dev nD) : (fun q : Fin 128 => (V3 m ρ c main_v4 : Cert.Gcn.Mat 1 128) (ix2 (0 : Fin 1) q))
    = fun q => (m ((c : Thread nD τ).loc main_arg5) : (⟨1, ![128]⟩ : Shape).Idx → EReal) (ix1 q) := by
  have e : (V3 m ρ c main_v4 : Cert.Gcn.Mat 1 128) = shapeCast S1x128 (m ((c : Thread nD τ).loc main_arg5)) shapeCasts_S128_S1x128 := by
    show StableHlo.after hostOps1 (W2 m ρ c) (Proc.devRef .tc main_v4) = _
    after_results
    rw [W2_biasvec]
    rfl
  funext q
  rw [e]
  exact shapeCast_a_1a_apply _ _ _ _

/-! ## The result -/

/-- The kernel's result array after the run: the network of the six arguments. -/
theorem result_eq (c : Dev nD) :
    (W4 m ρ c (Proc.devRef .tc main_v5) : Cert.Gcn.Mat 10000 128)
      = Cert.Gcn.net (m ((c : Thread nD τ).loc main_arg0)) (m ((c : Thread nD τ).loc main_arg1)) (m ((c : Thread nD τ).loc main_arg2)) (fun q => (m ((c : Thread nD τ).loc main_arg3) : (⟨1, ![128]⟩ : Shape).Idx → EReal) (ix1 q))
          (m ((c : Thread nD τ).loc main_arg4)) (fun q => (m ((c : Thread nD τ).loc main_arg5) : (⟨1, ![128]⟩ : Shape).Idx → EReal) (ix1 q)) := by
  refine (W4_arr m ρ c 5).trans ((final1 (V3 m ρ) c).trans ?_)
  rw [V3_adj, V3_feat16, V3_feat, V3_weights, V3_bias]
  rfl

end Cert.KernelIdeal.Hand

end
-- ==== Proof.lean ====
/-
  The kernel computes a two-layer graph convolution with mean aggregation over a dense 10000 × 10000 adjacency matrix:
  each layer is max (v · W[0:128] + (A · v) · W[128:256] + b, 0), and the second adds its input back and takes `max`
  with 0 again. It runs each layer as one region over 25 panels of 400 rows of `A`, multiplying the node's own features
  and its aggregate by the two halves of `W` separately; the reference concatenates features and aggregate into 256
  columns and multiplies by `W` whole.

  At the extended reals the two are one function of the six arguments (`Cert.Gcn.net`): every change of float format is
  the identity, every product into a zero accumulator is the plain sum of products, and the reference's sum over 256
  columns is the kernel's two sums over 128 (addition is commutative and associative on the extended reals, so no
  finiteness is used and the precondition is never opened).

  The kernel's side: its run ends with the result array at the last stage of the fold of @main's four segments
  (`Hand.run_named`), which read back through the two regions and the host lines between them is the network
  (`Hand.result_eq`: each region's 25 blocks tile the rows, and a block's element is the layer at its row). The
  reference's side: its run ends at the composed term of its operations, which read one operation at a time is the
  network too (`ReferenceIdeal.Hand.result_eq`). The three frames are the two frame theorems and the reference's run
  with its result dropped; the idealization rewrote nothing, so `preserves` is `True`.
-/
import proofs.«104888_g44830868636165_cont_8to1_c_628_6_alg».proof.Defs
import proofs.«104888_g44830868636165_cont_8to1_c_628_6_alg».proof.Proof.Gen.Kernel
import proofs.«104888_g44830868636165_cont_8to1_c_628_6_alg».proof.Proof.Gen.Kernel.Frame
import proofs.«104888_g44830868636165_cont_8to1_c_628_6_alg».proof.Proof.Gen.KernelIdeal
import proofs.«104888_g44830868636165_cont_8to1_c_628_6_alg».proof.Proof.Gen.KernelIdeal.Frame
import proofs.«104888_g44830868636165_cont_8to1_c_628_6_alg».proof.Proof.Gen.ReferenceIdeal
import proofs.«104888_g44830868636165_cont_8to1_c_628_6_alg».proof.Proof.Gen.ReferenceIdeal.Run
import proofs.«104888_g44830868636165_cont_8to1_c_628_6_alg».proof.Proof.Gen.ReferenceIdeal.Read
import proofs.«104888_g44830868636165_cont_8to1_c_628_6_alg».proof.Proof.Gen.Pre_finite_inputs
import proofs.«104888_g44830868636165_cont_8to1_c_628_6_alg».proof.Proof.GcnSpec
import proofs.«104888_g44830868636165_cont_8to1_c_628_6_alg».proof.Proof.RefNet
import proofs.«104888_g44830868636165_cont_8to1_c_628_6_alg».proof.Proof.KernelRun
import proofs.«104888_g44830868636165_cont_8to1_c_628_6_alg».proof.Proof.KernelNet
import Idealize.ShloMosaic.Adequacy
import Idealize.ShloMosaic.Init

noncomputable section

namespace Cert.Proof

open Idealize.ShloMosaic Idealize.ShloMosaic.ValueIdx Idealize.SL.Sem

/-- The word-level kernel runs and leaves its arguments unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the six arguments both programs end with the network of those arguments in their
    result arrays. -/
theorem algebraic : Cert.algebraic_KernelIdeal_ReferenceIdeal := by
  intro m ρ m' ρ' _ hagree
  refine ⟨fun c => Cert.Gcn.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (fun q => ((m ((c.tc : Thread Cert.KernelIdeal.nD Cert.KernelIdeal.τ).loc Cert.KernelIdeal.main_arg3)) : (⟨1, ![128]⟩ : Shape).Idx → EReal) (ix1 q)) (m ((c.tc : Thread Cert.KernelIdeal.nD Cert.KernelIdeal.τ).loc Cert.KernelIdeal.main_arg4))
      (fun q => ((m ((c.tc : Thread Cert.KernelIdeal.nD Cert.KernelIdeal.τ).loc Cert.KernelIdeal.main_arg5)) : (⟨1, ![128]⟩ : Shape).Idx → EReal) (ix1 q)), ?_, ?_⟩
  · exact (θ_run Cert.KernelIdeal.defs _ _).mono
      (fun _ h c => ⟨(h c).1.trans (Cert.KernelIdeal.Hand.result_eq m ρ c), (h c).2⟩)
      (Cert.KernelIdeal.Hand.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v15_eq, Cert.ReferenceIdeal.Hand.result_eq,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
